-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : FVec F S512x512 .f32) (main_arg2 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S512x512 : Shape := ⟨2, ![512, 512]⟩
abbrev S512 : Shape := ⟨1, ![512]⟩
abbrev S1x512 : Shape := ⟨2, ![1, 512]⟩
abbrev S128x512 : Shape := ⟨2, ![128, 512]⟩
abbrev S1x128 : Shape := ⟨2, ![1, 128]⟩
abbrev S128x128 : Shape := ⟨2, ![128, 128]⟩
abbrev S8x512 : Shape := ⟨2, ![8, 512]⟩
abbrev S8x1x512 : Shape := ⟨3, ![8, 1, 512]⟩
abbrev S1x128x512 : Shape := ⟨3, ![1, 128, 512]⟩
abbrev S8x128x512 : Shape := ⟨3, ![8, 128, 512]⟩
abbrev S8x128 : Shape := ⟨2, ![8, 128]⟩

abbrev nBuf : Space → Nat
  | .hbm => 5
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S512x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512_S1x512 : S512.ShapeCasts S1x512
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S128x512_o0_0_S8x512 : S128x512.Slices ![0, 0] S8x512
  shapeCasts_S8x512_S8x1x512 : S8x512.ShapeCasts S8x1x512
  shapeCasts_S128x512_S1x128x512 : S128x512.ShapeCasts S1x128x512
  broadcasts_S8x1x512_S8x128x512 : S8x1x512.Broadcasts S8x128x512
  broadcasts_S1x128x512_S8x128x512 : S1x128x512.Broadcasts S8x128x512
  reduces_S8x128x512_S8x128 : S8x128x512.Reduces [2] S8x128
  broadcasts_S1x128_S8x128 : S1x128.Broadcasts S8x128
  inb_S128x128_S8x128_0_0 : ∀ a, (![0, 0] : Fin 2 → Nat) a + S8x128.size a ≤ S128x128.size a
  h_S8x128 : 0 < S8x128.numel
  slices_S128x512_o8_0_S8x512 : S128x512.Slices ![8, 0] S8x512
  inb_S128x128_S8x128_8_0 : ∀ a, (![8, 0] : Fin 2 → Nat) a + S8x128.size a ≤ S128x128.size a
  slices_S128x512_o16_0_S8x512 : S128x512.Slices ![16, 0] S8x512
  inb_S128x128_S8x128_16_0 : ∀ a, (![16, 0] : Fin 2 → Nat) a + S8x128.size a ≤ S128x128.size a
  slices_S128x512_o24_0_S8x512 : S128x512.Slices ![24, 0] S8x512
  inb_S128x128_S8x128_24_0 : ∀ a, (![24, 0] : Fin 2 → Nat) a + S8x128.size a ≤ S128x128.size a
  slices_S128x512_o32_0_S8x512 : S128x512.Slices ![32, 0] S8x512
  inb_S128x128_S8x128_32_0 : ∀ a, (![32, 0] : Fin 2 → Nat) a + S8x128.size a ≤ S128x128.size a
  slices_S128x512_o40_0_S8x512 : S128x512.Slices ![40, 0] S8x512
  inb_S128x128_S8x128_40_0 : ∀ a, (![40, 0] : Fin 2 → Nat) a + S8x128.size a ≤ S128x128.size a
  slices_S128x512_o48_0_S8x512 : S128x512.Slices ![48, 0] S8x512
  inb_S128x128_S8x128_48_0 : ∀ a, (![48, 0] : Fin 2 → Nat) a + S8x128.size a ≤ S128x128.size a
  slices_S128x512_o56_0_S8x512 : S128x512.Slices ![56, 0] S8x512
  inb_S128x128_S8x128_56_0 : ∀ a, (![56, 0] : Fin 2 → Nat) a + S8x128.size a ≤ S128x128.size a
  slices_S128x512_o64_0_S8x512 : S128x512.Slices ![64, 0] S8x512
  inb_S128x128_S8x128_64_0 : ∀ a, (![64, 0] : Fin 2 → Nat) a + S8x128.size a ≤ S128x128.size a
  slices_S128x512_o72_0_S8x512 : S128x512.Slices ![72, 0] S8x512
  inb_S128x128_S8x128_72_0 : ∀ a, (![72, 0] : Fin 2 → Nat) a + S8x128.size a ≤ S128x128.size a
  slices_S128x512_o80_0_S8x512 : S128x512.Slices ![80, 0] S8x512
  inb_S128x128_S8x128_80_0 : ∀ a, (![80, 0] : Fin 2 → Nat) a + S8x128.size a ≤ S128x128.size a
  slices_S128x512_o88_0_S8x512 : S128x512.Slices ![88, 0] S8x512
  inb_S128x128_S8x128_88_0 : ∀ a, (![88, 0] : Fin 2 → Nat) a + S8x128.size a ≤ S128x128.size a
  slices_S128x512_o96_0_S8x512 : S128x512.Slices ![96, 0] S8x512
  inb_S128x128_S8x128_96_0 : ∀ a, (![96, 0] : Fin 2 → Nat) a + S8x128.size a ≤ S128x128.size a
  slices_S128x512_o104_0_S8x512 : S128x512.Slices ![104, 0] S8x512
  inb_S128x128_S8x128_104_0 : ∀ a, (![104, 0] : Fin 2 → Nat) a + S8x128.size a ≤ S128x128.size a
  slices_S128x512_o112_0_S8x512 : S128x512.Slices ![112, 0] S8x512
  inb_S128x128_S8x128_112_0 : ∀ a, (![112, 0] : Fin 2 → Nat) a + S8x128.size a ≤ S128x128.size a
  slices_S128x512_o120_0_S8x512 : S128x512.Slices ![120, 0] S8x512
  inb_S128x128_S8x128_120_0 : ∀ a, (![120, 0] : Fin 2 → Nat) a + S8x128.size a ≤ S128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x512.size a
  hwx0_2 : ∀ i : grid0.Coords, EltTy.bits .f32 = 32 ∨ (Rect.block (s := S1x512) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x512.size a
  hwx0_3 : ∀ i : grid0.Coords, EltTy.bits .f32 = 32 ∨ (Rect.block (s := S512x512) S128x128.size (cc0_transform_3 i) (hinb0_3 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S_ : Shape := ⟨0, ![]⟩
abbrev S512x1x512 : Shape := ⟨3, ![512, 1, 512]⟩
abbrev S1x512x512 : Shape := ⟨3, ![1, 512, 512]⟩
abbrev S512x512x512 : Shape := ⟨3, ![512, 512, 512]⟩
abbrev S1x512 : Shape := ⟨2, ![1, 512]⟩

abbrev nBuf : Space → Nat
  | .hbm => 97
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x1x512, .f32⟩
  | .hbm, ⟨16, _⟩ => ⟨S1x512x512, .f32⟩
  | .hbm, ⟨17, _⟩ => ⟨S512x512x512, .f32⟩
  | .hbm, ⟨18, _⟩ => ⟨S512x512x512, .f32⟩
  | .hbm, ⟨19, _⟩ => ⟨S512x512x512, .f32⟩
  | .hbm, ⟨20, _⟩ => ⟨S_, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x1x512, .f32⟩
  | .hbm, ⟨38, _⟩ => ⟨S1x512x512, .f32⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S_, .f32⟩
  | .hbm, ⟨43, _⟩ => ⟨S512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x1x512, .f32⟩
  | .hbm, ⟨61, _⟩ => ⟨S1x512x512, .f32⟩
  | .hbm, ⟨62, _⟩ => ⟨S512x512x512, .f32⟩
  | .hbm, ⟨63, _⟩ => ⟨S512x512x512, .f32⟩
  | .hbm, ⟨64, _⟩ => ⟨S512x512x512, .f32⟩
  | .hbm, ⟨65, _⟩ => ⟨S_, .f32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S_, .f32⟩
  | .hbm, ⟨75, _⟩ => ⟨S512x512, .f32⟩
  | .hbm, ⟨76, _⟩ => ⟨S512x512, .f32⟩
  | .hbm, ⟨77, _⟩ => ⟨S_, .f32⟩
  | .hbm, ⟨78, _⟩ => ⟨S512x512, .f32⟩
  | .hbm, ⟨79, _⟩ => ⟨S512x512, .f32⟩
  | .hbm, ⟨80, _⟩ => ⟨S_, .f32⟩
  | .hbm, ⟨81, _⟩ => ⟨S512x512, .f32⟩
  | .hbm, ⟨82, _⟩ => ⟨S512x512, .f32⟩
  | .hbm, ⟨83, _⟩ => ⟨S512x1x512, .f32⟩
  | .hbm, ⟨84, _⟩ => ⟨S1x512x512, .f32⟩
  | .hbm, ⟨85, _⟩ => ⟨S512x512x512, .f32⟩
  | .hbm, ⟨86, _⟩ => ⟨S512x512x512, .f32⟩
  | .hbm, ⟨87, _⟩ => ⟨S512x512x512, .f32⟩
  | .hbm, ⟨88, _⟩ => ⟨S_, .f32⟩
  | .hbm, ⟨89, _⟩ => ⟨S512x512, .f32⟩
  | .hbm, ⟨90, _⟩ => ⟨S_, .f32⟩
  | .hbm, ⟨91, _⟩ => ⟨S512x512, .f32⟩
  | .hbm, ⟨92, _⟩ => ⟨S512x512, .f32⟩
  | .hbm, ⟨93, _⟩ => ⟨S512x512, .f32⟩
  | .hbm, ⟨94, _⟩ => ⟨S1x512, .f32⟩
  | .hbm, ⟨95, _⟩ => ⟨S512x512, .f32⟩
  | .hbm, ⟨96, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_v38 : Ref sig .tc := ⟨.hbm, 56, rfl⟩
abbrev main_cst_14 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_17 : Ref sig .tc := ⟨.hbm, 71, rfl⟩
abbrev main_v50 : Ref sig .tc := ⟨.hbm, 72, rfl⟩
abbrev main_v51 : Ref sig .tc := ⟨.hbm, 73, rfl⟩
abbrev main_cst_18 : Ref sig .tc := ⟨.hbm, 74, rfl⟩
abbrev main_v52 : Ref sig .tc := ⟨.hbm, 75, rfl⟩
abbrev main_v53 : Ref sig .tc := ⟨.hbm, 76, rfl⟩
abbrev main_cst_19 : Ref sig .tc := ⟨.hbm, 77, rfl⟩
abbrev main_v54 : Ref sig .tc := ⟨.hbm, 78, rfl⟩
abbrev main_v55 : Ref sig .tc := ⟨.hbm, 79, rfl⟩
abbrev main_cst_20 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_21 : Ref sig .tc := ⟨.hbm, 88, rfl⟩
abbrev main_v63 : Ref sig .tc := ⟨.hbm, 89, rfl⟩
abbrev main_cst_22 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  bcast_S512_S1x512_1 : S512.BroadcastsInDim S1x512 (![1] : Fin 1 → Fin S1x512.rank)
  bcast_S1x512_S512x512_0_1 : S1x512.BroadcastsInDim S512x512 (![0, 1] : Fin 2 → Fin S512x512.rank)

variable [Facts₀]

class Facts : Prop extends Facts₀ where

variable [Facts]
-- ==== Proof.LibLaneMax.lean ====
/-
  The largest product along the last axis of an outer product, read at an entry.

  Two matrices `A : [a, c]` and `B : [b, c]` are laid over a common `[a, b, c]` box — `A` through a unit middle
  axis, `B` through a unit leading axis —, multiplied entry by entry, and the largest entry along the last axis is
  taken from a starting value.  At `(p, q)` the result is the fold of `max`, from that value, over the products
  `A (p, k) * B (q, k)`: the "max-times" pairing of row `p` of `A` with row `q` of `B`.

  * The reduction along the last axis of an `[a, b, c]` array read at `(p, q)`, in the vector spelling
    (a multi-reduction from a starting word) and in the host's spelling (a reduce with a maximum body from an
    initial value).
  * The layout steps read at an entry: `[a, c] → [a, 1, c]` as a cast and as a broadcast along named axes,
    `[b, c] → [1, b, c]` as a broadcast along named axes, and the two spreads `[a, 1, c] → [a, b, c]`,
    `[1, b, c] → [a, b, c]` in both spellings.
  * The two composed statements, `vecOuterMax_apply` (with `A` first cut to `a` consecutive rows of a taller
    matrix) and `hostOuterMax_apply`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLaneMax

open Idealize.ShloMosaic Idealize.ShloMosaic.ValueIdx

variable {α : Type}

/-! ## The reduction along the last axis -/

/-- Putting the dropped last coordinate `k` back into `(p, q)` gives the entry `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float maximum along the last axis from the word `acc`, read at `(p, q)`: the fold of `max` over the
    entries `(p, q, k)`, from the word's value. -/
theorem lastMax_apply {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.maximumf.neutral .f32 hφ) (p : Fin a) (q : Fin b) :
    multiReduction .maximumf [2] (⟨2, ![a, b]⟩ : Shape) src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  have hf : (src ∘ h.lift (ix2 p q)) = fun k : Fin c => src (ix3 p q k) :=
    funext fun k => congrArg src (lift_last h p q k)
  exact congrArg (fun f => Finset.fold max (Ideal.ofBits .f32 acc) f (Finset.univ : Finset (Fin c))) hf

/-- The host's reduction with a maximum body along the last axis, read at `(p, q)`: the fold of `max` over the
    entries `(p, q, k)`, from the initial value. -/
theorem hostLastMax_apply {a b c : ℕ} {u : Shape} (x : (⟨3, ![a, b, c]⟩ : Shape).Idx → Ideal .f32) (init : u.Idx → Ideal .f32)
    (h' : (⟨3, ![a, b, c]⟩ : Shape).ReducesTo [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  have h : (⟨3, ![a, b, c]⟩ : Shape).Reduces [2] (⟨2, ![a, b]⟩ : Shape) := ⟨h'.1, Nat.zero_lt_two, h'.2⟩
  refine (Host.reduce_eq_fold_single FloatOps.maximumf x init h' h hu (ix2 p q)).trans ?_
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

/-! ## The layout steps, vector spelling -/

/-- An `[a, c]` array cast to `[a, 1, c]` reads, at `(p, u, k)`, the entry `(p, k)`: the same row-major position. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array spread over `[a, b, c]` reads, at `(p, q, k)`, the entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array spread over `[a, b, c]` reads, at `(p, q, k)`, the entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-! ## The layout steps, host spelling -/

/-- An `[a, c]` array broadcast to `[a, 1, c]` along the axes `0, 2` reads, at `(p, u, k)`, the entry `(p, k)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (p : Fin a) (u : Fin 1) (k : Fin c) :
    broadcastInDim ⟨3, ![a, 1, c]⟩ ![0, 2] h x (ix3 p u k) = x (ix2 p k) := by
  refine broadcastInDim_apply _ h x (ix3 p u k) (ix2 p k) fun ax => ?_
  match ax with
  | ⟨0, _⟩ =>
    show p.val = if a = 1 then 0 else p.val
    split
    · have := p.isLt; omega
    · rfl
  | ⟨1, _⟩ =>
    show k.val = if c = 1 then 0 else k.val
    split
    · have := k.isLt; omega
    · rfl

/-- A `[b, c]` array broadcast to `[1, b, c]` along the axes `1, 2` reads, at `(u, q, k)`, the entry `(q, k)`. -/
theorem broadcastInDim_bc_1bc_apply {b c : ℕ} (x : (⟨2, ![b, c]⟩ : Shape).Idx → α)
    (h : (⟨2, ![b, c]⟩ : Shape).BroadcastsInDim ⟨3, ![1, b, c]⟩ ![1, 2]) (u : Fin 1) (q : Fin b) (k : Fin c) :
    broadcastInDim ⟨3, ![1, b, c]⟩ ![1, 2] h x (ix3 u q k) = x (ix2 q k) := by
  refine broadcastInDim_apply _ h x (ix3 u q k) (ix2 q k) fun ax => ?_
  match ax with
  | ⟨0, _⟩ =>
    show q.val = if b = 1 then 0 else q.val
    split
    · have := q.isLt; omega
    · rfl
  | ⟨1, _⟩ =>
    show k.val = if c = 1 then 0 else k.val
    split
    · have := k.isLt; omega
    · rfl

/-- An `[a, 1, c]` array broadcast to `[a, b, c]` axis by axis reads, at `(p, q, k)`, the entry `(p, 0, k)`. -/
theorem broadcastInDim_a1c_abc_apply {a b c : ℕ} (v : (⟨3, ![a, 1, c]⟩ : Shape).Idx → α)
    (h : (⟨3, ![a, 1, c]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 p (0 : Fin 1) k) := by
  refine broadcastInDim_apply _ h v (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` axis by axis reads, at `(p, q, k)`, the entry `(0, q, k)`. -/
theorem broadcastInDim_1bc_abc_apply {a b c : ℕ} (v : (⟨3, ![1, b, c]⟩ : Shape).Idx → α)
    (h : (⟨3, ![1, b, c]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 (0 : Fin 1) q k) := by
  refine broadcastInDim_apply _ h v (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-! ## The composed statements -/

/-- VECTOR SPELLING.  Rows `o, …, o + a - 1` of `A : [n, c]`, laid through a unit middle axis over `[a, b, c]`,
    times `B : [b, c]` laid through a unit leading axis, then the maximum along the last axis from the word `acc`:
    at `(p, q)` the fold of `max` over `k` of `A (o + p, k) * B (q, k)`. -/
theorem vecOuterMax_apply {n a b c : ℕ} (o : ℕ) (A : FVec Ideal ⟨2, ![n, c]⟩ .f32) (B : FVec Ideal ⟨2, ![b, c]⟩ .f32)
    (hs : (⟨2, ![n, c]⟩ : Shape).Slices ![o, 0] ⟨2, ![a, c]⟩)
    (hc1 : (⟨2, ![a, c]⟩ : Shape).ShapeCasts ⟨3, ![a, 1, c]⟩)
    (hb1 : (⟨3, ![a, 1, c]⟩ : Shape).Broadcasts ⟨3, ![a, b, c]⟩)
    (hc2 : (⟨2, ![b, c]⟩ : Shape).ShapeCasts ⟨3, ![1, b, c]⟩)
    (hb2 : (⟨3, ![1, b, c]⟩ : Shape).Broadcasts ⟨3, ![a, b, c]⟩)
    (acc : BitVec 32) (hr : (⟨3, ![a, b, c]⟩ : Shape).Reduces [2] (⟨2, ![a, b]⟩ : Shape)) (hφ : FKind.Formats .f32)
    (hacc : acc = FKind.maximumf.neutral .f32 hφ) (p : Fin a) (q : Fin b) (r : Fin n) (hrp : r.val = o + p.val) :
    multiReduction .maximumf [2] (⟨2, ![a, b]⟩ : Shape)
        (mulf (broadcastTo ⟨3, ![a, b, c]⟩ (shapeCast ⟨3, ![a, 1, c]⟩ (extractStridedSlice ⟨2, ![a, c]⟩ ![o, 0] A hs) hc1) hb1)
          (broadcastTo ⟨3, ![a, b, c]⟩ (shapeCast ⟨3, ![1, b, c]⟩ B hc2) hb2)) acc hr hφ hacc (ix2 p q)
      = (Finset.univ : Finset (Fin c)).fold max (Ideal.ofBits .f32 acc) (fun k => A (ix2 r k) * B (ix2 q k)) := by
  rw [lastMax_apply]
  refine congrArg (fun f => Finset.fold max (Ideal.ofBits .f32 acc) f (Finset.univ : Finset (Fin c))) (funext fun k => ?_)
  rw [mulf_apply, broadcastTo_a1c_abc_apply, broadcastTo_1bc_abc_apply, shapeCast_ac_a1c_apply,
    shapeCast_ab_1ab_apply, slice2_axis0_apply o A hs p k r hrp]

/-- HOST SPELLING.  `X : [a, c]` and `W : [b, c]` broadcast over `[a, b, c]` (each first given its unit axis),
    multiplied, then reduced with a maximum body along the last axis from `init`: at `(p, q)` the fold of `max`
    over `k` of `X (p, k) * W (q, k)`. -/
theorem hostOuterMax_apply {a b c : ℕ} {u : Shape} (X : FVec Ideal ⟨2, ![a, c]⟩ .f32) (W : FVec Ideal ⟨2, ![b, c]⟩ .f32)
    (init : u.Idx → Ideal .f32)
    (h1 : (⟨2, ![a, c]⟩ : Shape).BroadcastsInDim ⟨3, ![a, 1, c]⟩ ![0, 2])
    (h2 : (⟨3, ![a, 1, c]⟩ : Shape).BroadcastsInDim ⟨3, ![a, b, c]⟩ ![0, 1, 2])
    (h3 : (⟨2, ![b, c]⟩ : Shape).BroadcastsInDim ⟨3, ![1, b, c]⟩ ![1, 2])
    (h4 : (⟨3, ![1, b, c]⟩ : Shape).BroadcastsInDim ⟨3, ![a, b, c]⟩ ![0, 1, 2])
    (h' : (⟨3, ![a, b, c]⟩ : Shape).ReducesTo [2] (⟨2, ![a, b]⟩ : Shape)) (hu : 0 < u.numel) (p : Fin a) (q : Fin b) :
    Host.reduce FloatOps.maximumf
        (mulf (broadcastInDim ⟨3, ![a, b, c]⟩ ![0, 1, 2] h2 (broadcastInDim ⟨3, ![a, 1, c]⟩ ![0, 2] h1 X))
          (broadcastInDim ⟨3, ![a, b, c]⟩ ![0, 1, 2] h4 (broadcastInDim ⟨3, ![1, b, c]⟩ ![1, 2] h3 W))) init h' hu (ix2 p q)
      = (Finset.univ : Finset (Fin c)).fold max (init (Shape.Idx.first hu)) (fun k => X (ix2 p k) * W (ix2 q k)) := by
  rw [hostLastMax_apply]
  refine congrArg (fun f => Finset.fold max (init (Shape.Idx.first hu)) f (Finset.univ : Finset (Fin c))) (funext fun k => ?_)
  rw [mulf_apply, broadcastInDim_a1c_abc_apply, broadcastInDim_1bc_abc_apply, broadcastInDim_ac_a1c_apply,
    broadcastInDim_bc_1bc_apply]

end Cert.LibLaneMax

end
-- ==== Proof.Spec.lean ====
/-
  The tropical ("max-times") linear layer as one function of its arguments.

  For a row `x` of the input and a row `w` of the weight, both of length `K`, write `x⁺ = max x 0` and
  `x⁻ = max (0 - x) 0` entry by entry, and let the max-times pairing of two rows be
  `⟨u, v⟩ = max_k (u k * v k)`, the maximum taken from −∞.  The layer's entry for the pair of rows is

      ⟨x⁺, w⁺⟩ - ⟨x⁺, w⁻⟩ - ⟨x⁻, w⁺⟩ + ⟨x⁻, w⁻⟩ + b,

  summed in that order.  The same four pairings weighted by the signs `(+1)(+1)`, `(-1)(+1)`, `(+1)(-1)`,
  `(-1)(-1)` written as factors `1` and `-1`, the negative parts taken as `max (-1 * x) 0`, and the terms added in
  another order give the same extended real: on the extended reals `-1 * y = -y`, `0 - y = -y`, `1 * y = y`,
  `u - v = u + -v`, and addition is commutative and associative.  None of this needs the entries to be finite.
-/
import Idealize.ShloMosaic.Lib.ValueIdx
import Idealize.ShloMosaic.Lib.IdealHost
import Idealize.ShloMosaic.PureOps.Ideal.Laws

noncomputable section

namespace Cert.Tropical

open Idealize.ShloMosaic Idealize.ShloMosaic.ValueIdx

/-- The value every maximum starts from: the f32 word of −∞. -/
abbrev start : EReal := Ideal.ofBits .f32 0xFF800000#32

/-- The positive part `max x 0`. -/
def pos (x : EReal) : EReal := max x 0

/-- The positive part of the negation, `max (0 - x) 0`. -/
def neg (x : EReal) : EReal := max (0 - x) 0

/-- The max-times pairing of two rows: the largest product `u k * v k`, from −∞. -/
def pair {K : ℕ} (u v : Fin K → EReal) : EReal :=
  (Finset.univ : Finset (Fin K)).fold max start (fun k => u k * v k)

/-- The layer's entry for a row `x` of the input, a row `w` of the weight and the bias entry `b`. -/
def entry {K : ℕ} (x w : Fin K → EReal) (b : EReal) : EReal :=
  (((pair (fun k => pos (x k)) (fun k => pos (w k)) - pair (fun k => pos (x k)) (fun k => neg (w k)))
      - pair (fun k => neg (x k)) (fun k => pos (w k))) + pair (fun k => neg (x k)) (fun k => neg (w k))) + b

/-- The whole layer: entry `(n, m)` pairs row `n` of `X` with row `m` of `W` and adds `B m`. -/
def layer {N M K : ℕ} (X : (⟨2, ![N, K]⟩ : Shape).Idx → EReal) (W : (⟨2, ![M, K]⟩ : Shape).Idx → EReal)
    (B : (⟨1, ![M]⟩ : Shape).Idx → EReal) : (⟨2, ![N, M]⟩ : Shape).Idx → EReal :=
  fun i => entry (fun k => X (ix2 (i 0) k)) (fun k => W (ix2 (i 1) k)) (B (ix1 (i 1)))

/-- The f32 word of minus one is the extended real `-1`. -/
theorem ofBits_neg_one_f32 : Ideal.ofBits .f32 0xBF800000#32 = (-1 : EReal) := by
  have h : Ideal.ofBits .f32 0xBF800000#32 = ((-(1 : ℝ)) : EReal) := by
    simp [Ideal.ofBits, Ideal.ieee, -EReal.coe_mul, -EReal.coe_neg]; norm_num
  rw [h, EReal.coe_one]

/-- THE LAW joining the two spellings: the four pairings with sign factors `1` and `-1`, negative parts as
    `max (-1 * ·) 0`, positive parts as `max (1 * ·) 0`, added in the order `(-,-)`, `(-,+)`, `(+,-)`, `(+,+)`, then
    the bias — is `entry`. -/
theorem signed_eq_entry {K : ℕ} (x w : Fin K → EReal) (b : EReal) :
    ((((1 * pair (fun k => max (-1 * x k) 0) (fun k => max (-1 * w k) 0)
          + -1 * pair (fun k => max (-1 * x k) 0) (fun k => max (1 * w k) 0))
        + -1 * pair (fun k => max (1 * x k) 0) (fun k => max (-1 * w k) 0))
      + 1 * pair (fun k => max (1 * x k) 0) (fun k => max (1 * w k) 0)) + b) = entry x w b := by
  unfold entry pos neg
  simp only [one_mul, neg_one_mul, zero_sub, sub_eq_add_neg]
  ac_rfl

end Cert.Tropical

end
-- ==== Proof.KernelBlock.lean ====
/-
  One block of the kernel's output, as a function of the three blocks the body loads.

  The body holds a `[128, 512]` block `P0` of the input, a `[128, 512]` block `P1` of the weight and a
  `[1, 128]` block `P2` of the bias row.  It forms the positive parts `P0⁺, P1⁺` and the positive parts of the
  negations `P0⁻, P1⁻` once, and then, for each of the sixteen groups of eight consecutive rows of `P0`, lays the
  eight rows against all 128 rows of `P1` in an `[8, 128, 512]` box, multiplies, takes the maximum along the
  last axis for each of the four sign pairs, combines the four `[8, 128]` results as
  `(++) - (+-) - (-+) + (--)`, adds the bias row to every row and stores the `[8, 128]` slab at rows
  `o, …, o + 7` of the output block, `o = 0, 8, …, 120`.

  * `chunk_apply`: one such slab read at `(p, q)` — the four max-times pairings of row `o + p` with row `q`,
    combined, plus the bias entry `q`.
  * `slab_eq`: with the positive and negative parts spelled as the body spells them, the slab through a rectangle
    whose rows start at `o` is the layer's entry (Spec.lean's `entry`) of row `o + p` of `P0`, row `q` of `P1` and
    entry `q` of `P2`.
-/
import proofs.«105309_j4140348473994_2_alg».proof.Proof.Gen.KernelIdeal.Frame
import proofs.«105309_j4140348473994_2_alg».proof.Proof.LibLaneMax
import proofs.«105309_j4140348473994_2_alg».proof.Proof.Spec
import Idealize.ShloMosaic.Lib.Pipeline.Value
import Idealize.ShloMosaic.Lib.ValueLayout

set_option maxRecDepth 16384

noncomputable section

namespace Cert.KernelIdeal.Block

open Cert.KernelIdeal Cert.KernelIdeal.Gen Idealize.ShloMosaic Idealize.ShloMosaic.ValueIdx Cert.LibLaneMax Cert.Tropical

/-- The layer's entry for row `r` of `P0`, row `q` of `P1` and entry `q` of the bias row `P2`. -/
def entryAt (P0 P1 : Vec Ideal S128x512 .f32) (P2 : Vec Ideal S1x128 .f32) (r q : Fin 128) : EReal :=
  entry (fun k : Fin 512 => P0 (ix2 r k)) (fun k : Fin 512 => P1 (ix2 q k)) (P2 (ix2 (0 : Fin 1) q))

/-- The layer of the three loaded blocks: what the `[128, 128]` output block holds after the body. -/
def blockLayer (P0 P1 : Vec Ideal S128x512 .f32) (P2 : Vec Ideal S1x128 .f32) : Vec Ideal S128x128 .f32 :=
  fun y => entryAt P0 P1 P2 (y 0) (y 1)

/-- ONE SLAB at `(p, q)`: for arrays `xp, xn` (rows cut from `o`) and `wp, wn`, the four lane maxima of the outer
    products combined as `(xp,wp) - (xp,wn) - (xn,wp) + (xn,wn)` plus the row `v3` spread over the eight rows: the
    four max-times pairings of row `r = o + p` with row `q`, combined in that order, plus `v3 (0, q)`. -/
theorem chunk_apply (o : ℕ) (xp xn wp wn : FVec Ideal S128x512 .f32) (v3 : FVec Ideal S1x128 .f32)
    (hs : S128x512.Slices ![o, 0] S8x512) (hc1 : S8x512.ShapeCasts S8x1x512) (hb1 : S8x1x512.Broadcasts S8x128x512)
    (hc2 : S128x512.ShapeCasts S1x128x512) (hb2 : S1x128x512.Broadcasts S8x128x512)
    (hr : S8x128x512.Reduces [2] S8x128) (hφ : FKind.Formats .f32)
    (hacc : (0xFF800000#32 : BitVec 32) = FKind.maximumf.neutral .f32 hφ)
    (hb3 : S1x128.Broadcasts S8x128) (p : Fin 8) (q : Fin 128) (r : Fin 128) (hrp : r.val = o + p.val) :
    addf (addf (subf (subf
        (multiReduction .maximumf [2] S8x128 (mulf (broadcastTo S8x128x512 (shapeCast S8x1x512 (extractStridedSlice S8x512 ![o, 0] xp hs) hc1) hb1) (broadcastTo S8x128x512 (shapeCast S1x128x512 wp hc2) hb2)) 0xFF800000#32 hr hφ hacc)
        (multiReduction .maximumf [2] S8x128 (mulf (broadcastTo S8x128x512 (shapeCast S8x1x512 (extractStridedSlice S8x512 ![o, 0] xp hs) hc1) hb1) (broadcastTo S8x128x512 (shapeCast S1x128x512 wn hc2) hb2)) 0xFF800000#32 hr hφ hacc))
        (multiReduction .maximumf [2] S8x128 (mulf (broadcastTo S8x128x512 (shapeCast S8x1x512 (extractStridedSlice S8x512 ![o, 0] xn hs) hc1) hb1) (broadcastTo S8x128x512 (shapeCast S1x128x512 wp hc2) hb2)) 0xFF800000#32 hr hφ hacc))
        (multiReduction .maximumf [2] S8x128 (mulf (broadcastTo S8x128x512 (shapeCast S8x1x512 (extractStridedSlice S8x512 ![o, 0] xn hs) hc1) hb1) (broadcastTo S8x128x512 (shapeCast S1x128x512 wn hc2) hb2)) 0xFF800000#32 hr hφ hacc))
      (broadcastTo S8x128 v3 hb3) (ix2 p q)
    = (((pair (fun k : Fin 512 => xp (ix2 r k)) (fun k : Fin 512 => wp (ix2 q k))
          - pair (fun k : Fin 512 => xp (ix2 r k)) (fun k : Fin 512 => wn (ix2 q k)))
        - pair (fun k : Fin 512 => xn (ix2 r k)) (fun k : Fin 512 => wp (ix2 q k)))
        + pair (fun k : Fin 512 => xn (ix2 r k)) (fun k : Fin 512 => wn (ix2 q k)))
      + v3 (ix2 (0 : Fin 1) q) := by
  rw [addf_apply, addf_apply, subf_apply, subf_apply,
    vecOuterMax_apply o xp wp hs hc1 hb1 hc2 hb2 _ hr hφ hacc p q r hrp,
    vecOuterMax_apply o xp wn hs hc1 hb1 hc2 hb2 _ hr hφ hacc p q r hrp,
    vecOuterMax_apply o xn wp hs hc1 hb1 hc2 hb2 _ hr hφ hacc p q r hrp,
    vecOuterMax_apply o xn wn hs hc1 hb1 hc2 hb2 _ hr hφ hacc p q r hrp,
    broadcastTo_1b_ab_apply]
  rfl

/-! ## The body's positive and negative parts, and its copy of the bias row -/

theorem pos0_apply (P0 : Vec Ideal S128x512 .f32) (i : S128x512.Idx) : k0_pay2 P0 i = pos (P0 i) := by
  show max (P0 i) (Ideal.ofBits .f32 0x00000000#32) = max (P0 i) 0
  rw [Ideal.ofBits_zero_f32]

theorem neg0_apply (P0 : Vec Ideal S128x512 .f32) (i : S128x512.Idx) : k0_pay3 P0 i = neg (P0 i) := by
  show max (Ideal.ofBits .f32 0x00000000#32 - P0 i) (Ideal.ofBits .f32 0x00000000#32) = max (0 - P0 i) 0
  rw [Ideal.ofBits_zero_f32]

theorem pos1_apply (P1 : Vec Ideal S128x512 .f32) (i : S128x512.Idx) : k0_pay4 P1 i = pos (P1 i) := by
  show max (P1 i) (Ideal.ofBits .f32 0x00000000#32) = max (P1 i) 0
  rw [Ideal.ofBits_zero_f32]

theorem neg1_apply (P1 : Vec Ideal S128x512 .f32) (i : S128x512.Idx) : k0_pay5 P1 i = neg (P1 i) := by
  show max (Ideal.ofBits .f32 0x00000000#32 - P1 i) (Ideal.ofBits .f32 0x00000000#32) = max (0 - P1 i) 0
  rw [Ideal.ofBits_zero_f32]

/-- The bias row passes through a cast to its own shape. -/
theorem bias_apply (P2 : Vec Ideal S1x128 .f32) : k0_pay1 P2 = P2 := by
  unfold k0_pay1
  exact shapeCast_self P2 _

/-- THE SLAB whose rows start at `o`, through a rectangle `ρ` of the output block that starts at row `o`, column
    `0`: at `x` it is the layer's entry at the block index under `x`. -/
theorem slab_eq (o : ℕ) (P0 P1 : Vec Ideal S128x512 .f32) (P2 : Vec Ideal S1x128 .f32)
    (hs : S128x512.Slices ![o, 0] S8x512) (hc1 : S8x512.ShapeCasts S8x1x512) (hb1 : S8x1x512.Broadcasts S8x128x512)
    (hc2 : S128x512.ShapeCasts S1x128x512) (hb2 : S1x128x512.Broadcasts S8x128x512)
    (hr : S8x128x512.Reduces [2] S8x128) (hφ : FKind.Formats .f32)
    (hacc : (0xFF800000#32 : BitVec 32) = FKind.maximumf.neutral .f32 hφ)
    (hb3 : S1x128.Broadcasts S8x128) (x : S8x128.Idx) (y : S128x128.Idx)
    (hy0 : (y 0).val = o + 1 * (x 0).val) (hy1 : (y 1).val = 0 + 1 * (x 1).val) :
    addf (addf (subf (subf
        (multiReduction .maximumf [2] S8x128 (mulf (broadcastTo S8x128x512 (shapeCast S8x1x512 (extractStridedSlice S8x512 ![o, 0] (k0_pay2 P0) hs) hc1) hb1) (broadcastTo S8x128x512 (shapeCast S1x128x512 (k0_pay4 P1) hc2) hb2)) 0xFF800000#32 hr hφ hacc)
        (multiReduction .maximumf [2] S8x128 (mulf (broadcastTo S8x128x512 (shapeCast S8x1x512 (extractStridedSlice S8x512 ![o, 0] (k0_pay2 P0) hs) hc1) hb1) (broadcastTo S8x128x512 (shapeCast S1x128x512 (k0_pay5 P1) hc2) hb2)) 0xFF800000#32 hr hφ hacc))
        (multiReduction .maximumf [2] S8x128 (mulf (broadcastTo S8x128x512 (shapeCast S8x1x512 (extractStridedSlice S8x512 ![o, 0] (k0_pay3 P0) hs) hc1) hb1) (broadcastTo S8x128x512 (shapeCast S1x128x512 (k0_pay4 P1) hc2) hb2)) 0xFF800000#32 hr hφ hacc))
        (multiReduction .maximumf [2] S8x128 (mulf (broadcastTo S8x128x512 (shapeCast S8x1x512 (extractStridedSlice S8x512 ![o, 0] (k0_pay3 P0) hs) hc1) hb1) (broadcastTo S8x128x512 (shapeCast S1x128x512 (k0_pay5 P1) hc2) hb2)) 0xFF800000#32 hr hφ hacc))
      (broadcastTo S8x128 (k0_pay1 P2) hb3) x
    = blockLayer P0 P1 P2 y := by
  obtain ⟨p, q, rfl⟩ : ∃ (p : Fin 8) (q : Fin 128), x = ix2 p q := ⟨x 0, x 1, eq_ix2 x⟩
  have hq : y 1 = q := Fin.ext (by rw [hy1]; show 0 + 1 * q.val = q.val; omega)
  refine (chunk_apply o (k0_pay2 P0) (k0_pay3 P0) (k0_pay4 P1) (k0_pay5 P1) (k0_pay1 P2) hs hc1 hb1 hc2 hb2 hr hφ hacc hb3
    p q (y 0) (by rw [hy0]; show o + 1 * p.val = o + p.val; omega)).trans ?_
  unfold blockLayer entryAt entry
  simp only [pos0_apply, neg0_apply, pos1_apply, neg1_apply, bias_apply, hq]

end Cert.KernelIdeal.Block

end
-- ==== Proof.KernelTile.lean ====
/-
  The sixteen slabs tile the output block.

  The body's sixteen stores, last first, write the `[8, 128]` slabs of rows `120, 112, …, 0` of the `[128, 128]` output
  block.  Each slab, at its index `x`, is the layer's entry at the block index under `x` (KernelBlock.lean's
  `slab_eq`, at the slab's row offset and with the body's own layout facts), and the sixteen rectangles cover the
  block; so the block the body leaves is `blockLayer` of the three loaded blocks, index by index.
-/
import proofs.«105309_j4140348473994_2_alg».proof.Proof.Gen.KernelIdeal.Frame
import proofs.«105309_j4140348473994_2_alg».proof.Proof.KernelBlock
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx Cert.Tropical

theorem zero_off : (![0, 0] : Fin 2 → Nat) = fun _ => 0 := funext fun a => by fin_cases a <;> rfl

/-- THE BLOCK the body leaves, from the three loaded blocks. -/
theorem out_eq (x0 x1 : Vec Ideal S128x512 .f32) (x2 : Vec Ideal S1x128 .f32) :
    out0_3 x0 x1 x2 = blockLayer x0 x1 x2 := by
  funext y
  unfold out0_3
  simp only [View.ld_unit_zero (S := S128x512) zero_off, View.ld_unit_zero (S := S1x128) zero_off]
  refine View.canon_apply_of_pieces (blockLayer x0 x1 x2) _ ?_ y (cover0_3 _ _ _ _ _ _ _ _ _ _ _ _ _ _ _ _ y)
  intro pc hpc
  rcases List.mem_cons.mp hpc with rfl | hpc
  · exact fun x => slab_eq 120 x0 x1 x2 slices_S128x512_o120_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 112 x0 x1 x2 slices_S128x512_o112_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 104 x0 x1 x2 slices_S128x512_o104_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 96 x0 x1 x2 slices_S128x512_o96_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 88 x0 x1 x2 slices_S128x512_o88_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 80 x0 x1 x2 slices_S128x512_o80_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 72 x0 x1 x2 slices_S128x512_o72_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 64 x0 x1 x2 slices_S128x512_o64_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 56 x0 x1 x2 slices_S128x512_o56_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 48 x0 x1 x2 slices_S128x512_o48_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 40 x0 x1 x2 slices_S128x512_o40_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 32 x0 x1 x2 slices_S128x512_o32_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 24 x0 x1 x2 slices_S128x512_o24_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 16 x0 x1 x2 slices_S128x512_o16_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 8 x0 x1 x2 slices_S128x512_o8_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  rcases List.mem_cons.mp hpc with rfl | hpc
  · exact fun x => slab_eq 0 x0 x1 x2 slices_S128x512_o0_0_S8x512 shapeCasts_S8x512_S8x1x512 broadcasts_S8x1x512_S8x128x512
      shapeCasts_S128x512_S1x128x512 broadcasts_S1x128x512_S8x128x512 reduces_S8x128x512_S8x128 (.inl rfl) rfl
      broadcasts_S1x128_S8x128 x _ rfl rfl
  nomatch hpc

end Cert.KernelIdeal.Block

end
-- ==== Proof.KernelArray.lean ====
/-
  From blocks to the whole array: the kernel's result is the tropical layer of its three arguments.

  The grid has 4 × 4 points `(a, b)`.  At `(a, b)` the body is given rows `128 a … 128 a + 127` of the input (all 512
  columns), rows `128 b … 128 b + 127` of the weight, and columns `128 b … 128 b + 127` of the bias laid out as one row
  `[1, 512]` (a reshape the host does before the launch); it writes back the `[128, 128]` block `(a, b)` of the result.
  By KernelTile.lean the block written is the layer of the three loaded blocks; entry `(r, q)` of the loaded blocks
  is entry `(128 a + r, ·)` of the input, `(128 b + q, ·)` of the weight and `128 b + q` of the bias, so the block written is
  block `(a, b)` of `layer x w bias` (`flushed_eq`).  The sixteen blocks tile the `[512, 512]` result (`cover`), hence the
  array after the run is `layer x w bias` (`final`, `run`).
-/
import proofs.«105309_j4140348473994_2_alg».proof.Proof.Gen.KernelIdeal.Frame
import proofs.«105309_j4140348473994_2_alg».proof.Proof.KernelTile
import Idealize.ShloMosaic.Lib.Pipeline.Value
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Tropical Cert.KernelIdeal.Block
open Idealize.ShloMosaic.Pipeline (Dat)

variable (m : (ℓ : Loc nD τ sig) → Buf (Elt Ideal) ℓ) (ρ : Dev nD → PrngReg)

/-- The result as one function of the argument arrays: the tropical layer. -/
def result (c : Dev nD) : S512x512.Idx → EReal :=
  layer (m ((c : Thread nD τ).loc main_arg0)) (m ((c : Thread nD τ).loc main_arg1)) (m ((c : Thread nD τ).loc main_arg2))

/-- A block of the loaded blocks' layer is a block of the arrays' layer, when the loaded rows are the arrays' rows. -/
theorem blockLayer_eq_layer (P0 P1 : Vec Ideal S128x512 .f32) (P2 : Vec Ideal S1x128 .f32)
    (X W : S512x512.Idx → EReal) (B : S512.Idx → EReal) (y : S128x128.Idx) (i : S512x512.Idx)
    (h0 : ∀ k : Fin 512, P0 (ix2 (y 0) k) = X (ix2 (i 0) k))
    (h1 : ∀ k : Fin 512, P1 (ix2 (y 1) k) = W (ix2 (i 1) k))
    (h2 : P2 (ix2 (0 : Fin 1) (y 1)) = B (ix1 (i 1))) :
    blockLayer P0 P1 P2 y = layer X W B i := by
  unfold blockLayer entryAt layer
  simp only [h0, h1, h2]

/-- The index maps, decided over the sixteen points: the input's block row is the output's, the weight's block row
    and the bias row's block column are the output's block column, the other block indices are `0`. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block `(q0, q1)` of the result is some point's. -/
theorem idx_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- The bias row as the region finds it: the bias argument cast to `[1, 512]`. -/
theorem bias_row (c : Dev nD) :
    (V m c main_v0 : S1x512.Idx → EReal) = shapeCast S1x512 (m ((c : Thread nD τ).loc main_arg2)) shapeCasts_S512_S1x512 := by
  dsimp only [Gen.V, Gen.hostOps0]
  after_results
  rfl

/-- WHAT POINT `t` WRITES BACK is block `t` of the layer of the argument arrays. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  obtain ⟨e0, e1, e2, e3, e4, e5, -, -⟩ := idx_facts t
  funext j
  show blockLayer (iblk m c 0 t) (iblk m c 1 t) (iblk m c 2 t) j = result m c (((cfg0.win 3).blk t).view.emb j)
  have hj0 : (j 0).val < 128 := (j 0).isLt
  have hj1 : (j 1).val < 128 := (j 1).isLt
  refine blockLayer_eq_layer (iblk m c 0 t) (iblk m c 1 t) (iblk m c 2 t) (m ((c : Thread nD τ).loc main_arg0))
    (m ((c : Thread nD τ).loc main_arg1)) (m ((c : Thread nD τ).loc main_arg2)) j (((cfg0.win 3).blk t).view.emb j)
    (fun k => ?_) (fun k => ?_) ?_
  · rw [← V_main_arg0 m c]
    show V m c main_arg0 (((cfg0.win 0).blk t).view.emb (ix2 (j 0) k)) = V m c main_arg0 _
    refine congrArg _ (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 512 + 1 * k.val = k.val; omega
  · rw [← V_main_arg1 m c]
    show V m c main_arg1 (((cfg0.win 1).blk t).view.emb (ix2 (j 1) k)) = V m c main_arg1 _
    refine congrArg _ (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 512 + 1 * k.val = k.val; omega
  · show V m c main_v0 (((cfg0.win 2).blk t).view.emb (ix2 (0 : Fin 1) (j 1))) = _
    rw [bias_row]
    refine shapeCast_apply (s := S512) (t := S1x512) _ _ _ _ ?_
    show (S512.rowMajor (ix1 ((((cfg0.win 3).blk t).view.emb j) 1))).val
      = (S1x512.rowMajor (((cfg0.win 2).blk t).view.emb (ix2 (0 : Fin 1) (j 1)))).val
    rw [Shape.rowMajor_val_one, Shape.rowMajor_val_two]
    show win0_3.index t (1 : Fin 2) * 128 + 1 * (j 1).val
      = (win0_2.index t (0 : Fin 2) * 1 + 1 * 0) * 512 + (win0_2.index t (1 : Fin 2) * 128 + 1 * (j 1).val)
    omega

/-- An index of the result is in point `t`'s block iff each coordinate is in the block's range on its axis. -/
theorem mem_blk (t : Fin cfg0.N) (i : S512x512.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v1).slice (win0_3.rect t)).set ↔ _
  rw [View.set_slice_whole, Rect.mem_set_unit]
  exact Iff.rfl

/-- THE SIXTEEN BLOCKS TILE THE RESULT: entry `(n, m)` is in the block of the point whose output block is
    `(n / 128, m / 128)`. -/
theorem cover (i : S512x512.Idx) :
    ∃ t : Fin cfg0.N, (cfg0.win 3).flush t = true ∧ i ∈ ((cfg0.win 3).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_3.index t (0 : Fin 2) = (i 0).val / 128 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 128 ≤ (i 1).val ∧ (i 1).val < win0_3.index t (1 : Fin 2) * 128 + 128; omega

/-- THE ARRAY after the run is the layer of the argument arrays. -/
theorem final (c : Dev nD) : (dats m 0 c).arrAt 3 cfg0.N = result m c :=
  (dats m 0 c).arrAt_eq_of_cover 3 (result m c) (fun t _ => flushed_eq m c t) cover

/-- THE RUN: every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Whole

end
-- ==== Proof.RefLayer.lean ====
/-
  The reference computes the tropical layer.

  The reference forms, for each sign pair `(a, b) ∈ {(-1,-1), (-1,+1), (+1,-1), (+1,+1)}`, the arrays
  `max (a * x) 0` and `max (b * w) 0`, lays them over a `[512, 512, 512]` box, multiplies, takes the maximum along the
  last axis from −∞, multiplies by the sign `a * b` (a factor `1` or `-1`), adds the four terms in that order and then
  the bias spread over the rows.  Read at `(n, m)`: each maximum is the max-times pairing of row `n` of the scaled input
  with row `m` of the scaled weight (`hostOuterMax_apply`), the factors are the words of `1`, `-1` and `0`, and the
  sum is Spec.lean's `entry` by `signed_eq_entry`.
-/
import proofs.«105309_j4140348473994_2_alg».proof.Proof.Gen.ReferenceIdeal.Read
import proofs.«105309_j4140348473994_2_alg».proof.Proof.LibLaneMax
import proofs.«105309_j4140348473994_2_alg».proof.Proof.Spec
import Idealize.ShloMosaic.Lib.IdealHost

noncomputable section

namespace Cert.ReferenceIdeal.Layer

open Cert.ReferenceIdeal Cert.ReferenceIdeal.Gen Cert.ReferenceIdeal.Read Idealize.ShloMosaic Idealize.ShloMosaic.ValueIdx
open Cert.LibLaneMax Cert.Tropical

/-! ## The scaled positive parts, entry by entry -/

theorem negx_apply (x0 : FVec Ideal S512x512 .f32) (i : S512x512.Idx) : val_main_v3 (F := Ideal) x0 i = max (-1 * x0 i) 0 := by
  rw [val_main_v3_apply, val_main_v1_apply, val_main_v0_apply, val_main_v2_apply, val_main_cst_apply, val_main_cst_0_apply]
  show max (Ideal.ofBits .f32 0xBF800000#32 * x0 i) (Ideal.ofBits .f32 0x00000000#32) = _
  rw [ofBits_neg_one_f32, Ideal.ofBits_zero_f32]

theorem negw_apply (x1 : FVec Ideal S512x512 .f32) (i : S512x512.Idx) : val_main_v7 (F := Ideal) x1 i = max (-1 * x1 i) 0 := by
  rw [val_main_v7_apply, val_main_v5_apply, val_main_v4_apply, val_main_v6_apply, val_main_cst_1_apply, val_main_cst_2_apply]
  show max (Ideal.ofBits .f32 0xBF800000#32 * x1 i) (Ideal.ofBits .f32 0x00000000#32) = _
  rw [ofBits_neg_one_f32, Ideal.ofBits_zero_f32]

theorem negx'_apply (x0 : FVec Ideal S512x512 .f32) (i : S512x512.Idx) : val_main_v19 (F := Ideal) x0 i = max (-1 * x0 i) 0 := by
  rw [val_main_v19_apply, val_main_v17_apply, val_main_v16_apply, val_main_v18_apply, val_main_cst_5_apply, val_main_cst_6_apply]
  show max (Ideal.ofBits .f32 0xBF800000#32 * x0 i) (Ideal.ofBits .f32 0x00000000#32) = _
  rw [ofBits_neg_one_f32, Ideal.ofBits_zero_f32]

theorem posw_apply (x1 : FVec Ideal S512x512 .f32) (i : S512x512.Idx) : val_main_v23 (F := Ideal) x1 i = max (1 * x1 i) 0 := by
  rw [val_main_v23_apply, val_main_v21_apply, val_main_v20_apply, val_main_v22_apply, val_main_cst_7_apply, val_main_cst_8_apply]
  show max (Ideal.ofBits .f32 0x3F800000#32 * x1 i) (Ideal.ofBits .f32 0x00000000#32) = _
  rw [Ideal.ofBits_one_f32, Ideal.ofBits_zero_f32]

theorem posx_apply (x0 : FVec Ideal S512x512 .f32) (i : S512x512.Idx) : val_main_v36 (F := Ideal) x0 i = max (1 * x0 i) 0 := by
  rw [val_main_v36_apply, val_main_v34_apply, val_main_v33_apply, val_main_v35_apply, val_main_cst_11_apply, val_main_cst_12_apply]
  show max (Ideal.ofBits .f32 0x3F800000#32 * x0 i) (Ideal.ofBits .f32 0x00000000#32) = _
  rw [Ideal.ofBits_one_f32, Ideal.ofBits_zero_f32]

theorem negw'_apply (x1 : FVec Ideal S512x512 .f32) (i : S512x512.Idx) : val_main_v40 (F := Ideal) x1 i = max (-1 * x1 i) 0 := by
  rw [val_main_v40_apply, val_main_v38_apply, val_main_v37_apply, val_main_v39_apply, val_main_cst_13_apply, val_main_cst_14_apply]
  show max (Ideal.ofBits .f32 0xBF800000#32 * x1 i) (Ideal.ofBits .f32 0x00000000#32) = _
  rw [ofBits_neg_one_f32, Ideal.ofBits_zero_f32]

theorem posx'_apply (x0 : FVec Ideal S512x512 .f32) (i : S512x512.Idx) : val_main_v53 (F := Ideal) x0 i = max (1 * x0 i) 0 := by
  rw [val_main_v53_apply, val_main_v51_apply, val_main_v50_apply, val_main_v52_apply, val_main_cst_17_apply, val_main_cst_18_apply]
  show max (Ideal.ofBits .f32 0x3F800000#32 * x0 i) (Ideal.ofBits .f32 0x00000000#32) = _
  rw [Ideal.ofBits_one_f32, Ideal.ofBits_zero_f32]

theorem posw'_apply (x1 : FVec Ideal S512x512 .f32) (i : S512x512.Idx) : val_main_v57 (F := Ideal) x1 i = max (1 * x1 i) 0 := by
  rw [val_main_v57_apply, val_main_v55_apply, val_main_v54_apply, val_main_v56_apply, val_main_cst_19_apply, val_main_cst_20_apply]
  show max (Ideal.ofBits .f32 0x3F800000#32 * x1 i) (Ideal.ofBits .f32 0x00000000#32) = _
  rw [Ideal.ofBits_one_f32, Ideal.ofBits_zero_f32]

/-! ## The four maxima at `(n, m)` -/

theorem max_nn (x0 x1 : FVec Ideal S512x512 .f32) (n m : Fin 512) :
    val_main_v13 (F := Ideal) x0 x1 (ix2 n m)
      = pair (fun k : Fin 512 => max (-1 * x0 (ix2 n k)) 0) (fun k : Fin 512 => max (-1 * x1 (ix2 m k)) 0) := by
  unfold val_main_v13 val_main_v12 val_main_v10 val_main_v11 val_main_v8 val_main_v9
  refine (hostOuterMax_apply (val_main_v3 (F := Ideal) x0) (val_main_v7 (F := Ideal) x1) (val_main_cst_3 (F := Ideal))
    _ _ _ _ _ _ n m).trans ?_
  unfold pair
  simp only [negx_apply, negw_apply]
  rfl

theorem max_np (x0 x1 : FVec Ideal S512x512 .f32) (n m : Fin 512) :
    val_main_v29 (F := Ideal) x0 x1 (ix2 n m)
      = pair (fun k : Fin 512 => max (-1 * x0 (ix2 n k)) 0) (fun k : Fin 512 => max (1 * x1 (ix2 m k)) 0) := by
  unfold val_main_v29 val_main_v28 val_main_v26 val_main_v27 val_main_v24 val_main_v25
  refine (hostOuterMax_apply (val_main_v19 (F := Ideal) x0) (val_main_v23 (F := Ideal) x1) (val_main_cst_9 (F := Ideal))
    _ _ _ _ _ _ n m).trans ?_
  unfold pair
  simp only [negx'_apply, posw_apply]
  rfl

theorem max_pn (x0 x1 : FVec Ideal S512x512 .f32) (n m : Fin 512) :
    val_main_v46 (F := Ideal) x0 x1 (ix2 n m)
      = pair (fun k : Fin 512 => max (1 * x0 (ix2 n k)) 0) (fun k : Fin 512 => max (-1 * x1 (ix2 m k)) 0) := by
  unfold val_main_v46 val_main_v45 val_main_v43 val_main_v44 val_main_v41 val_main_v42
  refine (hostOuterMax_apply (val_main_v36 (F := Ideal) x0) (val_main_v40 (F := Ideal) x1) (val_main_cst_15 (F := Ideal))
    _ _ _ _ _ _ n m).trans ?_
  unfold pair
  simp only [posx_apply, negw'_apply]
  rfl

theorem max_pp (x0 x1 : FVec Ideal S512x512 .f32) (n m : Fin 512) :
    val_main_v63 (F := Ideal) x0 x1 (ix2 n m)
      = pair (fun k : Fin 512 => max (1 * x0 (ix2 n k)) 0) (fun k : Fin 512 => max (1 * x1 (ix2 m k)) 0) := by
  unfold val_main_v63 val_main_v62 val_main_v60 val_main_v61 val_main_v58 val_main_v59
  refine (hostOuterMax_apply (val_main_v53 (F := Ideal) x0) (val_main_v57 (F := Ideal) x1) (val_main_cst_21 (F := Ideal))
    _ _ _ _ _ _ n m).trans ?_
  unfold pair
  simp only [posx'_apply, posw'_apply]
  rfl

/-! ## The signs, the bias, the sum -/

theorem one_a (i : S512x512.Idx) : val_main_v14 (F := Ideal) i = 1 := by
  rw [val_main_v14_apply, val_main_cst_4_apply]; exact Ideal.ofBits_one_f32

theorem negone_b (i : S512x512.Idx) : val_main_v30 (F := Ideal) i = -1 := by
  rw [val_main_v30_apply, val_main_cst_10_apply]; exact ofBits_neg_one_f32

theorem negone_c (i : S512x512.Idx) : val_main_v47 (F := Ideal) i = -1 := by
  rw [val_main_v47_apply, val_main_cst_16_apply]; exact ofBits_neg_one_f32

theorem one_d (i : S512x512.Idx) : val_main_v64 (F := Ideal) i = 1 := by
  rw [val_main_v64_apply, val_main_cst_22_apply]; exact Ideal.ofBits_one_f32

/-- The bias spread over the rows reads, at `(n, m)`, entry `m`. -/
theorem bias_apply (x2 : FVec Ideal S512 .f32) (n m : Fin 512) : val_main_v68 (F := Ideal) x2 (ix2 n m) = x2 (ix1 m) := by
  rw [val_main_v68_apply, val_main_v67_apply]
  refine congrArg x2 (funext fun a => ?_)
  match a with
  | ⟨0, _⟩ => rfl

/-- THE REFERENCE'S RESULT is the layer of its three arguments. -/
theorem result_eq (x0 x1 : FVec Ideal S512x512 .f32) (x2 : FVec Ideal S512 .f32) :
    val_main_v69 (F := Ideal) x0 x1 x2 = layer x0 x1 x2 := by
  funext i
  obtain ⟨n, m, rfl⟩ : ∃ (n m : Fin 512), i = ix2 n m := ⟨i 0, i 1, eq_ix2 i⟩
  rw [val_main_v69_apply, val_main_v66_apply, val_main_v49_apply, val_main_v32_apply, val_main_v15_apply, val_main_v31_apply,
    val_main_v48_apply, val_main_v65_apply, max_nn, max_np, max_pn, max_pp, one_a, negone_b, negone_c, one_d, bias_apply]
  exact signed_eq_entry (fun k : Fin 512 => x0 (ix2 n k)) (fun k : Fin 512 => x1 (ix2 m k)) (x2 (ix1 m))

end Cert.ReferenceIdeal.Layer

end
-- ==== Proof.lean ====
/-
  A tropical ("max-times") linear layer, computed by a tiled kernel, against its plain reference.

  For `x : [512, 512]`, `w : [512, 512]`, `bias : [512]` both programs compute, at `(n, m)`,

      ⟨x⁺ₙ, w⁺ₘ⟩ - ⟨x⁺ₙ, w⁻ₘ⟩ - ⟨x⁻ₙ, w⁺ₘ⟩ + ⟨x⁻ₙ, w⁻ₘ⟩ + bias m,

  where `u⁺ = max u 0`, `u⁻ = max (-u) 0` entry by entry and `⟨u, v⟩ = max_k (u k * v k)` from −∞ (Spec.lean).

  * The kernel runs on a 4 × 4 grid; at point `(a, b)` it loads 128 rows of `x`, 128 rows of `w` and 128 entries of
    the bias, and writes the `[128, 128]` block `(a, b)` of the result in sixteen slabs of eight rows, each slab the
    four lane maxima of an `[8, 128, 512]` outer product combined as above.  KernelBlock.lean reads one slab at an
    entry, KernelTile.lean tiles the block with the sixteen slabs, KernelArray.lean tiles the result with the
    sixteen blocks: the result array is `layer x w bias`.
  * The reference forms the four pairings over a `[512, 512, 512]` box with the signs as factors `1` and `-1`, the
    negations as products with `-1`, and adds them in the order `(-,-), (-,+), (+,-), (+,+)`; RefLayer.lean reads it at
    an entry.
  * The two spellings agree on the extended reals by `-1 * y = -y`, `0 - y = -y`, `1 * y = y`, `u - v = u + -v` and
    the commutativity and associativity of addition (Spec.lean's `signed_eq_entry`); no entry has to be finite, so the
    precondition is not used by the value claim.
  * LibLaneMax.lean holds the general reading of "outer product, then maximum along the last axis" in the vector and
    the host spelling.
  The idealization rewrote no operation, so there is nothing to preserve; the three frames are the generated ones.
-/
import proofs.«105309_j4140348473994_2_alg».proof.Defs
import proofs.«105309_j4140348473994_2_alg».proof.Proof.Gen.Kernel
import proofs.«105309_j4140348473994_2_alg».proof.Proof.Gen.Kernel.Skeleton
import proofs.«105309_j4140348473994_2_alg».proof.Proof.Gen.Kernel.Launch
import proofs.«105309_j4140348473994_2_alg».proof.Proof.Gen.Kernel.Points
import proofs.«105309_j4140348473994_2_alg».proof.Proof.Gen.Kernel.Frame
import proofs.«105309_j4140348473994_2_alg».proof.Proof.Gen.KernelIdeal
import proofs.«105309_j4140348473994_2_alg».proof.Proof.Gen.KernelIdeal.Skeleton
import proofs.«105309_j4140348473994_2_alg».proof.Proof.Gen.KernelIdeal.Launch
import proofs.«105309_j4140348473994_2_alg».proof.Proof.Gen.KernelIdeal.Points
import proofs.«105309_j4140348473994_2_alg».proof.Proof.Gen.KernelIdeal.Frame
import proofs.«105309_j4140348473994_2_alg».proof.Proof.Gen.ReferenceIdeal
import proofs.«105309_j4140348473994_2_alg».proof.Proof.Gen.Pre_finite_inputs
import proofs.«105309_j4140348473994_2_alg».proof.Proof.Gen.ReferenceIdeal.Run
import proofs.«105309_j4140348473994_2_alg».proof.Proof.Gen.ReferenceIdeal.Read
import proofs.«105309_j4140348473994_2_alg».proof.Proof.KernelArray
import proofs.«105309_j4140348473994_2_alg».proof.Proof.RefLayer
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the tropical layer of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.ReferenceIdeal.Layer.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
